-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x12288 : Shape := ⟨2, ![128, 12288]⟩
abbrev S12288x4096 : Shape := ⟨2, ![12288, 4096]⟩
abbrev S4096 : Shape := ⟨1, ![4096]⟩
abbrev S4096x6 : Shape := ⟨2, ![4096, 6]⟩
abbrev S6 : Shape := ⟨1, ![6]⟩
abbrev S_ : Shape := ⟨0, ![]⟩

class Facts : Prop where
  bcast_S_S128x12288 : S_.BroadcastsInDim S128x12288 (![] : Fin 0 → Fin S128x12288.rank)
  reducesTo_S128x12288_S_d0_1 : S128x12288.ReducesTo [0, 1] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S4096 : S_.BroadcastsInDim S4096 (![] : Fin 0 → Fin S4096.rank)
  reducesTo_S4096_S_d0 : S4096.ReducesTo [0] S_
  bcast_S_S4096x6 : S_.BroadcastsInDim S4096x6 (![] : Fin 0 → Fin S4096x6.rank)
  reducesTo_S4096x6_S_d0_1 : S4096x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg4 : FVec F S6 .f32) (main_v13 : IVec S_ 1) (main_v16 : IVec S4096x6 1) : IVec S_ 1 :=
  let main_c_5 : IVec S_ 1 := constantI S_ 1 1#1
  let main_v17 : IVec S_ 1 := (fun x v => Host.reduce IntOp.andi x v reducesTo_S4096x6_S_d0_1 h_S_) main_v16 main_c_5
  let main_v18 : IVec S_ 1 := andi main_v13 main_v17
  let main_v19 : FVec F S6 .f32 := Host.absf main_arg4
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  main_v23

def fn {F : FTy → Type} [FloatOps F] (main_arg0 : FVec F S128x12288 .f32) (main_arg1 : FVec F S12288x4096 .f32) (main_arg2 : FVec F S4096 .f32) (main_arg3 : FVec F S4096x6 .f32) (main_arg4 : FVec F S6 .f32) : IVec S_ 1 :=
  let main_v0 : FVec F S128x12288 .f32 := Host.absf main_arg0
  let main_cst : FVec F S_ .f32 := constant S_ .f32 0x7F800000#32
  let main_v1 : FVec F S128x12288 .f32 := broadcastInDim S128x12288 ![] bcast_S_S128x12288 main_cst
  let main_v2 : IVec S128x12288 1 := cmpf .olt main_v0 main_v1
  let main_c : IVec S_ 1 := constantI S_ 1 1#1
  let main_v3 : IVec S_ 1 := (fun x v => Host.reduce IntOp.andi x v reducesTo_S128x12288_S_d0_1 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x6 .f32 := Host.absf main_arg3
  let main_cst_4 : FVec F S_ .f32 := constant S_ .f32 0x7F800000#32
  let main_v15 : FVec F S4096x6 .f32 := broadcastInDim S4096x6 ![] bcast_S_S4096x6 main_cst_4
  let main_v16 : IVec S4096x6 1 := cmpf .olt main_v14 main_v15
  fn_part1 (F := F) main_arg4 main_v13 main_v16
-- ==== Kernel.lean ====
abbrev S128x12288 : Shape := ⟨2, ![128, 12288]⟩
abbrev S12288x4096 : Shape := ⟨2, ![12288, 4096]⟩
abbrev S4096 : Shape := ⟨1, ![4096]⟩
abbrev S4096x6 : Shape := ⟨2, ![4096, 6]⟩
abbrev S6 : Shape := ⟨1, ![6]⟩
abbrev S1x4096 : Shape := ⟨2, ![1, 4096]⟩
abbrev S2x128x6 : Shape := ⟨3, ![2, 128, 6]⟩
abbrev S128x1024 : Shape := ⟨2, ![128, 1024]⟩
abbrev S1x2048 : Shape := ⟨2, ![1, 2048]⟩
abbrev S1024x2048 : Shape := ⟨2, ![1024, 2048]⟩
abbrev S2048x6 : Shape := ⟨2, ![2048, 6]⟩
abbrev S1x128x6 : Shape := ⟨3, ![1, 128, 6]⟩
abbrev S128x2048 : Shape := ⟨2, ![128, 2048]⟩
abbrev S128x6 : Shape := ⟨2, ![128, 6]⟩
abbrev S_ : Shape := ⟨0, ![]⟩
abbrev S1x6 : Shape := ⟨2, ![1, 6]⟩

abbrev nBuf : Space → Nat
  | .hbm => 12
  | .vmem => 11
  | .smem => 0
  | _ => 0

abbrev bufTy : (tb : Table) → Fin (tcTables nBuf tb) → BufTy
  | .hbm, ⟨0, _⟩ => ⟨S128x12288, .f32⟩
  | .hbm, ⟨1, _⟩ => ⟨S12288x4096, .f32⟩
  | .hbm, ⟨2, _⟩ => ⟨S4096, .f32⟩
  | .hbm, ⟨3, _⟩ => ⟨S4096x6, .f32⟩
  | .hbm, ⟨4, _⟩ => ⟨S6, .f32⟩
  | .hbm, ⟨5, _⟩ => ⟨S1x4096, .f32⟩
  | .hbm, ⟨6, _⟩ => ⟨S2x128x6, .f32⟩
  | .hbm, ⟨7, _⟩ => ⟨S_, .f32⟩
  | .hbm, ⟨8, _⟩ => ⟨S128x6, .f32⟩
  | .hbm, ⟨9, _⟩ => ⟨S1x6, .f32⟩
  | .hbm, ⟨10, _⟩ => ⟨S128x6, .f32⟩
  | .hbm, ⟨11, _⟩ => ⟨S128x6, .f32⟩
  | .local _ .vmem, ⟨0, _⟩ => ⟨S128x1024, .f32⟩
  | .local _ .vmem, ⟨1, _⟩ => ⟨S128x1024, .f32⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S2048x6, .f32⟩
  | .local _ .vmem, ⟨7, _⟩ => ⟨S2048x6, .f32⟩
  | .local _ .vmem, ⟨8, _⟩ => ⟨S1x128x6, .f32⟩
  | .local _ .vmem, ⟨9, _⟩ => ⟨S1x128x6, .f32⟩
  | .local _ .vmem, ⟨10, _⟩ => ⟨S128x2048, .f32⟩
  | _, _ => ⟨S128x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 12], ![false, false]⟩

def k0_cond2 (i : grid0.Coords) : BitVec 1 :=
  let arg1 : BitVec 32 := BitVec.ofNat 32 (i 1).val
  let c11_i32 : BitVec 32 := 11#32
  let v13 : BitVec 1 := Scalar.cmpi .eq arg1 c11_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4096_S1x4096 : S4096.ShapeCasts S1x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S2048x6_S2048x6_0_0 : ∀ a, (![0, 0] : Fin 2 → Nat) a + S2048x6.size a ≤ S2048x6.size a
  h_S2048x6 : 0 < S2048x6.numel
  inb_S1x128x6_S1x128x6_0_0_0 : ∀ a, (![0, 0, 0] : Fin 3 → Nat) a + S1x128x6.size a ≤ S1x128x6.size a
  h_S1x128x6 : 0 < S1x128x6.numel
  shapeCasts_S1x128x6_S128x6 : S1x128x6.ShapeCasts S128x6
  shapeCasts_S128x6_S1x128x6 : S128x6.ShapeCasts S1x128x6
  reducesTo_S2x128x6_S128x6_d0 : S2x128x6.ReducesTo [0] S128x6
  h_S_ : 0 < S_.numel
  bcast_S6_S1x6_1 : S6.BroadcastsInDim S1x6 (![1] : Fin 1 → Fin S1x6.rank)
  bcast_S1x6_S128x6_0_1 : S1x6.BroadcastsInDim S128x6 (![0, 1] : Fin 2 → Fin S128x6.rank)
  dot_S128x1024_S1024x2048_S128x2048_1_0_0_1_n_n_wf : DotDims.WF S128x1024 S1024x2048 S128x2048 [1] [0] [0] [1] [] []
  dot_S128x2048_S2048x6_S128x6_1_0_0_1_n_n_wf : DotDims.WF S128x2048 S2048x6 S128x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x12288.size a
  hwx0_0 : ∀ i : grid0.Coords, EltTy.bits .f32 = 32 ∨ (Rect.block (s := S128x12288) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x4096.size a
  hwx0_1 : ∀ i : grid0.Coords, EltTy.bits .f32 = 32 ∨ (Rect.block (s := S1x4096) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S12288x4096.size a
  hwx0_2 : ∀ i : grid0.Coords, EltTy.bits .f32 = 32 ∨ (Rect.block (s := S12288x4096) S1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x6.size a ≤ S4096x6.size a
  hwx0_3 : ∀ i : grid0.Coords, EltTy.bits .f32 = 32 ∨ (Rect.block (s := S4096x6) S2048x6.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x6.size a ≤ S2x128x6.size a
  hwx0_4 : ∀ i : grid0.Coords, EltTy.bits .f32 = 32 ∨ (Rect.block (s := S2x128x6) S1x128x6.size (cc0_transform_4 i) (hinb0_4 i)).WholeWords (EltTy.packing .f32)

variable [Facts₀]

def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x6_S128x6_1_0_0_1_n_n : DotDims S128x2048 S2048x6 S128x6 where
  lhsContracting := [1]
  rhsContracting := [0]
  lhsNonContracting := [0]
  rhsNonContracting := [1]
  lhsBatch := []
  rhsBatch := []
  wf := dot_S128x2048_S2048x6_S128x6_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x6.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128x6.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S128x12288 : Shape := ⟨2, ![128, 12288]⟩
abbrev S12288x4096 : Shape := ⟨2, ![12288, 4096]⟩
abbrev S4096 : Shape := ⟨1, ![4096]⟩
abbrev S4096x6 : Shape := ⟨2, ![4096, 6]⟩
abbrev S6 : Shape := ⟨1, ![6]⟩
abbrev S128x4096 : Shape := ⟨2, ![128, 4096]⟩
abbrev S1x4096 : Shape := ⟨2, ![1, 4096]⟩
abbrev S_ : Shape := ⟨0, ![]⟩
abbrev S128x6 : Shape := ⟨2, ![128, 6]⟩
abbrev S1x6 : Shape := ⟨2, ![1, 6]⟩

abbrev nBuf : Space → Nat
  | .hbm => 16
  | .vmem => 0
  | .smem => 0
  | _ => 0

abbrev bufTy : (tb : Table) → Fin (tcTables nBuf tb) → BufTy
  | .hbm, ⟨0, _⟩ => ⟨S128x12288, .f32⟩
  | .hbm, ⟨1, _⟩ => ⟨S12288x4096, .f32⟩
  | .hbm, ⟨2, _⟩ => ⟨S4096, .f32⟩
  | .hbm, ⟨3, _⟩ => ⟨S4096x6, .f32⟩
  | .hbm, ⟨4, _⟩ => ⟨S6, .f32⟩
  | .hbm, ⟨5, _⟩ => ⟨S128x4096, .f32⟩
  | .hbm, ⟨6, _⟩ => ⟨S1x4096, .f32⟩
  | .hbm, ⟨7, _⟩ => ⟨S128x4096, .f32⟩
  | .hbm, ⟨8, _⟩ => ⟨S128x4096, .f32⟩
  | .hbm, ⟨9, _⟩ => ⟨S_, .f32⟩
  | .hbm, ⟨10, _⟩ => ⟨S128x4096, .f32⟩
  | .hbm, ⟨11, _⟩ => ⟨S128x4096, .f32⟩
  | .hbm, ⟨12, _⟩ => ⟨S128x6, .f32⟩
  | .hbm, ⟨13, _⟩ => ⟨S1x6, .f32⟩
  | .hbm, ⟨14, _⟩ => ⟨S128x6, .f32⟩
  | .hbm, ⟨15, _⟩ => ⟨S128x6, .f32⟩
  | _, _ => ⟨S128x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  bcast_S_S128x4096 : S_.BroadcastsInDim S128x4096 (![] : Fin 0 → Fin S128x4096.rank)
  bcast_S6_S1x6_1 : S6.BroadcastsInDim S1x6 (![1] : Fin 1 → Fin S1x6.rank)
  bcast_S1x6_S128x6_0_1 : S1x6.BroadcastsInDim S128x6 (![0, 1] : Fin 2 → Fin S128x6.rank)
  dot_S128x12288_S12288x4096_S128x4096_1_0_0_1_n_n_wf : DotDims.WF S128x12288 S12288x4096 S128x4096 [1] [0] [0] [1] [] []
  dot_S128x4096_S4096x6_S128x6_1_0_0_1_n_n_wf : DotDims.WF S128x4096 S4096x6 S128x6 [1] [0] [0] [1] [] []

variable [Facts₀]

def dot_S128x12288_S12288x4096_S128x4096_1_0_0_1_n_n : DotDims S128x12288 S12288x4096 S128x4096 where
  lhsContracting := [1]
  rhsContracting := [0]
  lhsNonContracting := [0]
  rhsNonContracting := [1]
  lhsBatch := []
  rhsBatch := []
  wf := dot_S128x12288_S12288x4096_S128x4096_1_0_0_1_n_n_wf
def dot_S128x4096_S4096x6_S128x6_1_0_0_1_n_n : DotDims S128x4096 S4096x6 S128x6 where
  lhsContracting := [1]
  rhsContracting := [0]
  lhsNonContracting := [0]
  rhsNonContracting := [1]
  lhsBatch := []
  rhsBatch := []
  wf := dot_S128x4096_S4096x6_S128x6_1_0_0_1_n_n_wf

class Facts : Prop extends Facts₀ where

variable [Facts]
-- ==== Proof.MlpPieces.lean ====
/-
  What one grid point's body leaves behind, as values of what it loaded.

  The body keeps a `128 × 2048` accumulator between grid points. At a point that starts a hidden tile it first stores the
  bias row repeated over the 128 rows, reads that back, and adds the point's partial product; at every other point it
  adds the partial product to what the point before left. At a point that ends a tile it also stores the tile's output:
  the second product of the clamped accumulator it has just written. Each store covers its whole buffer, so what a buffer
  holds afterwards is the last store's value, and a load after a store reads the stored value.
-/
import proofs.«152724_j33586644255247_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.MlpPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that starts a tile (and does not end it) leaves in the accumulator the repeated bias row plus its partial
    product. -/
theorem acc_first (c : Dev nD) (i : grid0.Coords) (arg2 : Memref sig .tc .vmem S128x1024 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S2048x6 .f32) (harg5 : arg5.IsWhole) (arg6 : Memref sig .tc .vmem S1x128x6 .f32) (harg6 : arg6.IsWhole) (arg7 : Memref sig .tc .vmem S128x2048 .f32) (harg7 : arg7.IsWhole) (hc0 : cond0_0 i) (hc1 : ¬cond0_1 i) (x0 : Vec F S128x1024 .f32) (x1 : Vec F S1x2048 .f32) (x2 : Vec F S1024x2048 .f32) (x3 : Vec F S2048x6 .f32) :
    sout0_A_0 c i arg2 harg2 arg3 harg3 arg4 harg4 arg5 harg5 arg6 harg6 arg7 harg7 hc0 hc1 x0 x1 x2 x3 = k0_pay2 (k0_pay1 x1) x0 x2 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S128x2048) hz2, View.readCov_unit_zero (S := S128x2048) _ hz2]
  simp only [View.readAt_eq_ld, harg2.read_unread, harg3.read_unread, harg4.read_unread,
    View.ld_unit_zero (S := S128x1024) hz2, View.ld_unit_zero (S := S1x2048) hz2, View.ld_unit_zero (S := S1024x2048) hz2]

/-- A point inside a tile leaves the accumulator it found plus its partial product. -/
theorem acc_middle (c : Dev nD) (i : grid0.Coords) (arg2 : Memref sig .tc .vmem S128x1024 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S2048x6 .f32) (harg5 : arg5.IsWhole) (arg6 : Memref sig .tc .vmem S1x128x6 .f32) (harg6 : arg6.IsWhole) (arg7 : Memref sig .tc .vmem S128x2048 .f32) (harg7 : arg7.IsWhole) (hc0 : ¬cond0_0 i) (hc1 : ¬cond0_1 i) (x0 : Vec F S128x1024 .f32) (x1 : Vec F S1x2048 .f32) (x2 : Vec F S1024x2048 .f32) (x3 : Vec F S2048x6 .f32) (xs0 : Vec F S128x2048 .f32) :
    sout0_B_0 c i arg2 harg2 arg3 harg3 arg4 harg4 arg5 harg5 arg6 harg6 arg7 harg7 hc0 hc1 x0 x1 x2 x3 xs0 = k0_pay2 xs0 x0 x2 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg4.read_unread, harg7.read_unread,
    View.ld_unit_zero (S := S128x1024) hz2, View.ld_unit_zero (S := S128x2048) hz2, View.ld_unit_zero (S := S1024x2048) hz2]

/-- A point that ends a tile leaves the same in the accumulator … -/
theorem acc_last (c : Dev nD) (i : grid0.Coords) (arg2 : Memref sig .tc .vmem S128x1024 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S2048x6 .f32) (harg5 : arg5.IsWhole) (arg6 : Memref sig .tc .vmem S1x128x6 .f32) (harg6 : arg6.IsWhole) (arg7 : Memref sig .tc .vmem S128x2048 .f32) (harg7 : arg7.IsWhole) (hc0 : ¬cond0_0 i) (hc1 : cond0_1 i) (x0 : Vec F S128x1024 .f32) (x1 : Vec F S1x2048 .f32) (x2 : Vec F S1024x2048 .f32) (x3 : Vec F S2048x6 .f32) (xs0 : Vec F S128x2048 .f32) :
    sout0_C_0 c i arg2 harg2 arg3 harg3 arg4 harg4 arg5 harg5 arg6 harg6 arg7 harg7 hc0 hc1 x0 x1 x2 x3 xs0 = k0_pay2 xs0 x0 x2 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg4.read_unread, harg7.read_unread,
    View.ld_unit_zero (S := S128x1024) hz2, View.ld_unit_zero (S := S128x2048) hz2, View.ld_unit_zero (S := S1024x2048) hz2]

/-- … and in the output block the second product of that accumulator, clamped. -/
theorem out_last (c : Dev nD) (i : grid0.Coords) (arg2 : Memref sig .tc .vmem S128x1024 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S2048x6 .f32) (harg5 : arg5.IsWhole) (arg6 : Memref sig .tc .vmem S1x128x6 .f32) (harg6 : arg6.IsWhole) (arg7 : Memref sig .tc .vmem S128x2048 .f32) (harg7 : arg7.IsWhole) (hc0 : ¬cond0_0 i) (hc1 : cond0_1 i) (x0 : Vec F S128x1024 .f32) (x1 : Vec F S1x2048 .f32) (x2 : Vec F S1024x2048 .f32) (x3 : Vec F S2048x6 .f32) (xs0 : Vec F S128x2048 .f32) :
    out0_C_4 c i arg2 harg2 arg3 harg3 arg4 harg4 arg5 harg5 arg6 harg6 arg7 harg7 hc0 hc1 x0 x1 x2 x3 xs0 = k0_pay3 (k0_pay2 xs0 x0 x2) x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S128x2048) _ hz2]
  simp only [View.readAt_eq_ld, harg2.read_unread, harg4.read_unread, harg5.read_unread, harg7.read_unread,
    View.ld_unit_zero (S := S128x1024) hz2, View.ld_unit_zero (S := S128x2048) hz2, View.ld_unit_zero (S := S1024x2048) hz2,
    View.ld_unit_zero (S := S2048x6) hz2]

end Cert.KernelIdeal.MlpPieces

end
-- ==== Proof.MlpPayload.lean ====
/-
  The body's three stored values, read at an entry, on the extended reals.

  The repeated bias row at `(r, q)` is the row's entry `q`. The accumulator update at `(r, q)` is the old accumulator
  there plus `∑ i, x (r, i) · w (i, q)` over the point's 1024 contraction columns. The tile's output at `(0, r, o)` is
  `∑ q, max (acc (r, q)) z · w2 (q, o)` over the tile's 2048 hidden columns, `z` the value of the zero word. A change
  of float format is the identity here, and a product into a zero tile is the plain sum of products.
-/
import proofs.«152724_j33586644255247_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.MlpPayload

open Cert.KernelIdeal Cert.KernelIdeal.Gen

theorem mm1_lhs0 (j : S128x2048.Idx) (q : dot_S128x1024_S1024x2048_S128x2048_1_0_0_1_n_n.contr.Idx) : (dot_S128x1024_S1024x2048_S128x2048_1_0_0_1_n_n.lhsIdx j q 0).val = (j 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
theorem mm1_lhs1 (j : S128x2048.Idx) (q : dot_S128x1024_S1024x2048_S128x2048_1_0_0_1_n_n.contr.Idx) : (dot_S128x1024_S1024x2048_S128x2048_1_0_0_1_n_n.lhsIdx j q 1).val = (q ⟨0, by decide⟩).val :=
  dot_S128x1024_S1024x2048_S128x2048_1_0_0_1_n_n.lhsIdx_val_of_single rfl j q
theorem mm1_rhs0 (j : S128x2048.Idx) (q : dot_S128x1024_S1024x2048_S128x2048_1_0_0_1_n_n.contr.Idx) : (dot_S128x1024_S1024x2048_S128x2048_1_0_0_1_n_n.rhsIdx j q 0).val = (q ⟨0, by decide⟩).val :=
  dot_S128x1024_S1024x2048_S128x2048_1_0_0_1_n_n.rhsIdx_val_of_single rfl j q
theorem mm1_rhs1 (j : S128x2048.Idx) (q : dot_S128x1024_S1024x2048_S128x2048_1_0_0_1_n_n.contr.Idx) : (dot_S128x1024_S1024x2048_S128x2048_1_0_0_1_n_n.rhsIdx j q 1).val = (j 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl

/-- The first product into the zero tile, at `(r, c)`: the sum over the 1024 contraction columns. -/
theorem mm1_apply {φ₁ φ₂ : FTy} (A : FVec Ideal S128x1024 φ₁) (B : FVec Ideal S1024x2048 φ₂) (r : Fin 128) (c : Fin 2048) :
    FloatOps.matmul dot_S128x1024_S1024x2048_S128x2048_1_0_0_1_n_n none A B (constant (F := Ideal) S128x2048 .f32 0x00000000#32) (ix2 r c)
      = ∑ k : Fin 1024, A (ix2 r k) * B (ix2 k c) := by
  rw [Ideal.matmul_constant_zero_apply, ← Equiv.sum_comp (contrEquiv1 dot_S128x1024_S1024x2048_S128x2048_1_0_0_1_n_n 1024 rfl rfl).symm]
  refine Finset.sum_congr rfl fun k _ => ?_
  have hk := contrEquiv1_symm_val dot_S128x1024_S1024x2048_S128x2048_1_0_0_1_n_n 1024 rfl rfl k
  have el : dot_S128x1024_S1024x2048_S128x2048_1_0_0_1_n_n.lhsIdx (ix2 r c) ((contrEquiv1 dot_S128x1024_S1024x2048_S128x2048_1_0_0_1_n_n 1024 rfl rfl).symm k) = ix2 r k := funext fun a => Fin.ext (by
    match a with
    | ⟨0, _⟩ => exact mm1_lhs0 _ _
    | ⟨1, _⟩ => exact (mm1_lhs1 _ _).trans hk)
  have er : dot_S128x1024_S1024x2048_S128x2048_1_0_0_1_n_n.rhsIdx (ix2 r c) ((contrEquiv1 dot_S128x1024_S1024x2048_S128x2048_1_0_0_1_n_n 1024 rfl rfl).symm k) = ix2 k c := funext fun a => Fin.ext (by
    match a with
    | ⟨0, _⟩ => exact (mm1_rhs0 _ _).trans hk
    | ⟨1, _⟩ => exact mm1_rhs1 _ _)
  rw [el, er]

theorem mm2_lhs0 (j : S128x6.Idx) (q : dot_S128x2048_S2048x6_S128x6_1_0_0_1_n_n.contr.Idx) : (dot_S128x2048_S2048x6_S128x6_1_0_0_1_n_n.lhsIdx j q 0).val = (j 0).val := by
  unfold DotDims.lhsIdx
  rw [dif_neg (show ¬(0 : Fin S128x2048.rank) ∈ dot_S128x2048_S2048x6_S128x6_1_0_0_1_n_n.lhsBatch by decide), dif_pos (show (0 : Fin S128x2048.rank) ∈ dot_S128x2048_S2048x6_S128x6_1_0_0_1_n_n.lhsNonContracting by decide)]
  rfl
theorem mm2_lhs1 (j : S128x6.Idx) (q : dot_S128x2048_S2048x6_S128x6_1_0_0_1_n_n.contr.Idx) : (dot_S128x2048_S2048x6_S128x6_1_0_0_1_n_n.lhsIdx j q 1).val = (q ⟨0, by decide⟩).val :=
  dot_S128x2048_S2048x6_S128x6_1_0_0_1_n_n.lhsIdx_val_of_single rfl j q
theorem mm2_rhs0 (j : S128x6.Idx) (q : dot_S128x2048_S2048x6_S128x6_1_0_0_1_n_n.contr.Idx) : (dot_S128x2048_S2048x6_S128x6_1_0_0_1_n_n.rhsIdx j q 0).val = (q ⟨0, by decide⟩).val :=
  dot_S128x2048_S2048x6_S128x6_1_0_0_1_n_n.rhsIdx_val_of_single rfl j q
theorem mm2_rhs1 (j : S128x6.Idx) (q : dot_S128x2048_S2048x6_S128x6_1_0_0_1_n_n.contr.Idx) : (dot_S128x2048_S2048x6_S128x6_1_0_0_1_n_n.rhsIdx j q 1).val = (j 1).val := by
  unfold DotDims.rhsIdx
  rw [dif_neg (show ¬(1 : Fin S2048x6.rank) ∈ dot_S128x2048_S2048x6_S128x6_1_0_0_1_n_n.rhsBatch by decide), dif_pos (show (1 : Fin S2048x6.rank) ∈ dot_S128x2048_S2048x6_S128x6_1_0_0_1_n_n.rhsNonContracting by decide)]
  rfl

/-- The second product into the zero tile, at `(r, c)`: the sum over the 2048 hidden columns. -/
theorem mm2_apply {φ₁ φ₂ : FTy} (A : FVec Ideal S128x2048 φ₁) (B : FVec Ideal S2048x6 φ₂) (r : Fin 128) (c : Fin 6) :
    FloatOps.matmul dot_S128x2048_S2048x6_S128x6_1_0_0_1_n_n none A B (constant (F := Ideal) S128x6 .f32 0x00000000#32) (ix2 r c)
      = ∑ k : Fin 2048, A (ix2 r k) * B (ix2 k c) := by
  rw [Ideal.matmul_constant_zero_apply, ← Equiv.sum_comp (contrEquiv1 dot_S128x2048_S2048x6_S128x6_1_0_0_1_n_n 2048 rfl rfl).symm]
  refine Finset.sum_congr rfl fun k _ => ?_
  have hk := contrEquiv1_symm_val dot_S128x2048_S2048x6_S128x6_1_0_0_1_n_n 2048 rfl rfl k
  have el : dot_S128x2048_S2048x6_S128x6_1_0_0_1_n_n.lhsIdx (ix2 r c) ((contrEquiv1 dot_S128x2048_S2048x6_S128x6_1_0_0_1_n_n 2048 rfl rfl).symm k) = ix2 r k := funext fun a => Fin.ext (by
    match a with
    | ⟨0, _⟩ => exact mm2_lhs0 _ _
    | ⟨1, _⟩ => exact (mm2_lhs1 _ _).trans hk)
  have er : dot_S128x2048_S2048x6_S128x6_1_0_0_1_n_n.rhsIdx (ix2 r c) ((contrEquiv1 dot_S128x2048_S2048x6_S128x6_1_0_0_1_n_n 2048 rfl rfl).symm k) = ix2 k c := funext fun a => Fin.ext (by
    match a with
    | ⟨0, _⟩ => exact (mm2_rhs0 _ _).trans hk
    | ⟨1, _⟩ => exact mm2_rhs1 _ _)
  rw [el, er]

/-- The bias row repeated over the rows. -/
theorem bias_rows_apply (x1 : Vec Ideal S1x2048 .f32) (r : Fin 128) (q : Fin 2048) :
    k0_pay1 (F := Ideal) x1 (ix2 r q) = x1 (ix2 (0 : Fin 1) q) := by
  unfold k0_pay1
  rw [shapeCast_self, shapeCast_self, shapeCast_self]
  exact broadcastTo_1b_ab_apply x1 _ r q

/-- The accumulator update. -/
theorem acc_update_apply (acc : Vec Ideal S128x2048 .f32) (x : Vec Ideal S128x1024 .f32) (w : Vec Ideal S1024x2048 .f32)
    (r : Fin 128) (q : Fin 2048) :
    k0_pay2 (F := Ideal) acc x w (ix2 r q) = acc (ix2 r q) + ∑ i : Fin 1024, x (ix2 r i) * w (ix2 i q) := by
  unfold k0_pay2
  rw [shapeCast_self]
  show acc (ix2 r q) + FloatOps.matmul dot_S128x1024_S1024x2048_S128x2048_1_0_0_1_n_n none (truncf .bf16 x bitsLt_bf16_f32) (truncf .bf16 w bitsLt_bf16_f32)
    (constant (F := Ideal) S128x2048 .f32 0x00000000#32) (ix2 r q) = _
  rw [mm1_apply]
  rfl

/-- The tile's output. -/
theorem tile_out_apply (acc : Vec Ideal S128x2048 .f32) (w2 : Vec Ideal S2048x6 .f32) (u : Fin 1) (r : Fin 128) (o : Fin 6) :
    k0_pay3 (F := Ideal) acc w2 (ix3 u r o)
      = ∑ q : Fin 2048, max (acc (ix2 r q)) (Ideal.ofBits .f32 0x00000000#32) * w2 (ix2 q o) := by
  unfold k0_pay3
  rw [shapeCast_ab_1ab_apply]
  show FloatOps.matmul dot_S128x2048_S2048x6_S128x6_1_0_0_1_n_n none
    (truncf .bf16 (maximumf acc (broadcast S128x2048 (Scalar.ofBits (F := Ideal) .f32 0x00000000#32))) bitsLt_bf16_f32)
    (truncf .bf16 w2 bitsLt_bf16_f32) (constant (F := Ideal) S128x6 .f32 0x00000000#32) (ix2 r o) = _
  rw [mm2_apply]
  rfl

end Cert.KernelIdeal.MlpPayload

end
-- ==== Proof.LibTileSum.lean ====
/-
  Sums over a range cut into equal blocks, and over a square cut into square tiles.

  In a commutative monoid the order and grouping of a finite sum are free. So the sum of `g` over the `A · B` indices
  `0 … A·B − 1` is the sum, over the `A` blocks, of the sum over the `B` indices `B·i … B·i + B − 1` of block `i`; and the sum of
  `f` over a square of side `A · B` is the sum over its `A × A` tiles of the sum over the `B × B` entries of each tile.
  Likewise the sum over the points `t = B·i + j` of an `A × B` grid visited row by row is the double sum over `(i, j)`.
  Only associativity and commutativity of `+` are used, so the laws hold on the extended reals whatever the terms are.
-/
import Mathlib.Algebra.BigOperators.Fin
import Mathlib.Algebra.BigOperators.Intervals
import Mathlib.Logic.Equiv.Fin.Basic
import Mathlib.Tactic

namespace Cert.LibTileSum

open Finset

/-- Index `r` of block `i` lies below `A · B`. -/
theorem blk_lt {A B : ℕ} (i : Fin A) (r : Fin B) : B * i.val + r.val < A * B := by
  have h1 : B * (i.val + 1) ≤ B * A := Nat.mul_le_mul_left B i.isLt
  have h2 := r.isLt
  rw [Nat.mul_add, Nat.mul_one] at h1
  rw [Nat.mul_comm A B]
  omega

/-- Index `r` of block `i`, as an index of the whole range. -/
def blk {A B N : ℕ} (h : A * B = N) (i : Fin A) (r : Fin B) : Fin N := ⟨B * i.val + r.val, h ▸ blk_lt i r⟩

@[simp] theorem blk_val {A B N : ℕ} (h : A * B = N) (i : Fin A) (r : Fin B) : (blk h i r).val = B * i.val + r.val := rfl

/-- A sum over `A · B` indices, taken block by block. -/
theorem sum_blocks {M : Type*} [AddCommMonoid M] {A B N : ℕ} (h : A * B = N) (g : Fin N → M) :
    ∑ x : Fin N, g x = ∑ i : Fin A, ∑ r : Fin B, g (blk h i r) := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  exact Nat.add_comm _ _

/-- A sum over a square of side `A · B`, taken tile by tile. -/
theorem sum_tiles {M : Type*} [AddCommMonoid M] {A B N : ℕ} (h : A * B = N) (f : Fin N → Fin N → M) :
    ∑ x : Fin N, ∑ y : Fin N, f x y
      = ∑ i : Fin A, ∑ j : Fin A, ∑ r : Fin B, ∑ c : Fin B, f (blk h i r) (blk h j c) := by
  calc ∑ x : Fin N, ∑ y : Fin N, f x y
      = ∑ i : Fin A, ∑ r : Fin B, ∑ y : Fin N, f (blk h i r) y := sum_blocks h _
    _ = ∑ i : Fin A, ∑ r : Fin B, ∑ j : Fin A, ∑ c : Fin B, f (blk h i r) (blk h j c) :=
        Finset.sum_congr rfl fun i _ => Finset.sum_congr rfl fun r _ => sum_blocks h _
    _ = ∑ i : Fin A, ∑ j : Fin A, ∑ r : Fin B, ∑ c : Fin B, f (blk h i r) (blk h j c) :=
        Finset.sum_congr rfl fun i _ => Finset.sum_comm

/-- A sum over the points of an `A × B` grid visited row by row (point `t` has coordinates `(t / B mod A, t mod B)`)
    is the double sum over the coordinates. -/
theorem sum_rowMajor {M : Type*} [AddCommMonoid M] {A B N : ℕ} (h : A * B = N) (hA : 0 < A) (hB : 0 < B)
    (g : Fin A → Fin B → M) :
    ∑ t : Fin N, g ⟨t.val / B % A, Nat.mod_lt _ hA⟩ ⟨t.val % B, Nat.mod_lt _ hB⟩ = ∑ i : Fin A, ∑ j : Fin B, g i j := by
  rw [sum_blocks h]
  refine Finset.sum_congr rfl fun i _ => Finset.sum_congr rfl fun j _ => ?_
  have e1 : (B * i.val + j.val) / B = i.val := by
    rw [Nat.add_comm, Nat.add_mul_div_left _ _ hB, Nat.div_eq_of_lt j.isLt, Nat.zero_add]
  have e2 : (B * i.val + j.val) % B = j.val := by
    rw [Nat.add_comm, Nat.add_mul_mod_self_left, Nat.mod_eq_of_lt j.isLt]
  congr 1
  · exact Fin.ext (by show (B * i.val + j.val) / B % A = i.val; rw [e1, Nat.mod_eq_of_lt i.isLt])
  · exact Fin.ext (by show (B * i.val + j.val) % B = j.val; exact e2)

end Cert.LibTileSum
-- ==== Proof.MlpSpec.lean ====
/-
  The two-layer perceptron on the extended reals, and the two ways of summing it.

  For `x : 128 × 12288`, `w1 : 12288 × 4096`, `b1 : 4096`, `w2 : 4096 × 6` the hidden activation at `(r, h)` is
  `max (b1 h + ∑ k, x r k · w1 k h) z` (`z` the value the maximum is taken against) and the output before the last bias,
  at `(r, o)`, is `∑ h, hidden r h · w2 h o`.

  One side takes the contraction `k` in 12 blocks of 1024, starting from the bias and adding one block's partial sum at a
  time, and takes the hidden axis in 2 tiles of 2048, adding the tiles' outputs from zero. The other side takes each sum
  whole and adds the bias after it. Only associativity and commutativity of `+` separate the two, so they agree on the
  extended reals for every input, infinite ones included.
-/
import Mathlib.Data.EReal.Basic
import proofs.«152724_j33586644255247_1_alg».proof.Proof.LibTileSum

noncomputable section

namespace Cert.MlpSpec

open Finset Cert.LibTileSum

theorem blocks_k : 12 * 1024 = 12288 := by norm_num
theorem tiles_h : 2 * 2048 = 4096 := by norm_num

/-- Column `i` of contraction block `kb`. -/
abbrev kcol (kb : Fin 12) (i : Fin 1024) : Fin 12288 := blk blocks_k kb i

/-- Column `q` of hidden tile `j`. -/
abbrev hcol (j : Fin 2) (q : Fin 2048) : Fin 4096 := blk tiles_h j q

variable (x : Fin 128 → Fin 12288 → EReal) (w1 : Fin 12288 → Fin 4096 → EReal) (b1 : Fin 4096 → EReal)
  (w2 : Fin 4096 → Fin 6 → EReal) (z : EReal)

/-- Contraction block `kb`'s share of the first product at `(r, h)`. -/
def part (r : Fin 128) (h : Fin 4096) (kb : Fin 12) : EReal := ∑ i : Fin 1024, x r (kcol kb i) * w1 (kcol kb i) h

/-- The same with the block counted by a natural number (zero past the last block). -/
def partN (r : Fin 128) (h : Fin 4096) (n : ℕ) : EReal := if hn : n < 12 then part x w1 r h ⟨n, hn⟩ else 0

theorem partN_of_lt (r : Fin 128) (h : Fin 4096) (n : ℕ) (hn : n < 12) : partN x w1 r h n = part x w1 r h ⟨n, hn⟩ :=
  dif_pos hn

/-- The accumulator after blocks `0 … n`: the bias, then the blocks' shares. -/
def accUpTo (r : Fin 128) (h : Fin 4096) (n : ℕ) : EReal := b1 h + ∑ kb ∈ range (n + 1), partN x w1 r h kb

theorem accUpTo_zero (r : Fin 128) (h : Fin 4096) : accUpTo x w1 b1 r h 0 = b1 h + part x w1 r h 0 := by
  unfold accUpTo
  rw [Finset.sum_range_one, partN_of_lt x w1 r h 0 (by norm_num)]
  rfl

theorem accUpTo_succ (r : Fin 128) (h : Fin 4096) (n : ℕ) :
    accUpTo x w1 b1 r h (n + 1) = accUpTo x w1 b1 r h n + partN x w1 r h (n + 1) := by
  unfold accUpTo
  rw [Finset.sum_range_succ _ (n + 1), add_assoc]

/-- After the last block the accumulator is the bias plus the whole contraction. -/
theorem accUpTo_last (r : Fin 128) (h : Fin 4096) :
    accUpTo x w1 b1 r h 11 = b1 h + ∑ k : Fin 12288, x r k * w1 k h := by
  show b1 h + ∑ kb ∈ range 12, partN x w1 r h kb = _
  refine congrArg (b1 h + ·) ?_
  rw [Finset.sum_range, sum_blocks blocks_k (fun k => x r k * w1 k h)]
  exact Finset.sum_congr rfl fun kb _ => partN_of_lt x w1 r h kb.val kb.isLt

/-- Hidden tile `j`'s output at `(r, o)`. -/
def outTile (j : Fin 2) (r : Fin 128) (o : Fin 6) : EReal :=
  ∑ q : Fin 2048, max (accUpTo x w1 b1 r (hcol j q) 11) z * w2 (hcol j q) o

/-- The tiles' outputs added from zero are the whole second product of the hidden activations, the bias added after
    the first product or before it alike. -/
theorem sum_outTile (r : Fin 128) (o : Fin 6) :
    (0 : EReal) + ∑ j : Fin 2, outTile x w1 b1 w2 z j r o
      = ∑ h : Fin 4096, max ((∑ k : Fin 12288, x r k * w1 k h) + b1 h) z * w2 h o := by
  rw [zero_add, sum_blocks tiles_h (fun h => max ((∑ k : Fin 12288, x r k * w1 k h) + b1 h) z * w2 h o)]
  refine Finset.sum_congr rfl fun j _ => Finset.sum_congr rfl fun q _ => ?_
  rw [accUpTo_last, add_comm]

end Cert.MlpSpec

end
-- ==== Proof.MlpSteps.lean ====
/-
  One grid point's arithmetic against the specification.

  Write `X`, `W1`, `B1`, `W2` for the argument arrays by coordinates. At a point of hidden tile `j` and contraction block
  `kb` the body loads block `kb` of `X`'s columns, tile `j` of the bias, block `(kb, j)` of `W1` and tile `j` of
  `W2`'s rows. If the accumulator holds the bias plus the shares of blocks `0 … n`, adding block `n + 1`'s share makes it
  the bias plus the shares of blocks `0 … n + 1`; started from the repeated bias row it holds the bias plus block 0's
  share. From the accumulator after all 12 blocks the tile's output is the specification's.
-/
import proofs.«152724_j33586644255247_1_alg».proof.Proof.MlpPayload
import proofs.«152724_j33586644255247_1_alg».proof.Proof.MlpSpec

noncomputable section

open Idealize.ShloMosaic Idealize.ShloMosaic.ValueIdx

namespace Cert.KernelIdeal.MlpSteps

open Cert.KernelIdeal Cert.KernelIdeal.Gen Cert.KernelIdeal.MlpPayload Cert.MlpSpec

variable (X : Fin 128 → Fin 12288 → EReal) (W1 : Fin 12288 → Fin 4096 → EReal) (B1 : Fin 4096 → EReal)
  (W2 : Fin 4096 → Fin 6 → EReal)

/-- The point's partial product is its contraction block's share. -/
theorem share_eq (x0 : Vec Ideal S128x1024 .f32) (x2 : Vec Ideal S1024x2048 .f32) (j : Fin 2) (kb : Fin 12)
    (hx0 : ∀ r i, x0 (ix2 r i) = X r (kcol kb i)) (hx2 : ∀ i q, x2 (ix2 i q) = W1 (kcol kb i) (hcol j q))
    (r : Fin 128) (q : Fin 2048) :
    ∑ i : Fin 1024, x0 (ix2 r i) * x2 (ix2 i q) = part X W1 r (hcol j q) kb :=
  Finset.sum_congr rfl fun i _ => by rw [hx0, hx2]

/-- The first point of a tile. -/
theorem step_first (x0 : Vec Ideal S128x1024 .f32) (x1 : Vec Ideal S1x2048 .f32) (x2 : Vec Ideal S1024x2048 .f32)
    (j : Fin 2) (kb : Fin 12) (hkb : kb.val = 0)
    (hx0 : ∀ r i, x0 (ix2 r i) = X r (kcol kb i)) (hx1 : ∀ q, x1 (ix2 (0 : Fin 1) q) = B1 (hcol j q))
    (hx2 : ∀ i q, x2 (ix2 i q) = W1 (kcol kb i) (hcol j q)) (r : Fin 128) (q : Fin 2048) :
    k0_pay2 (F := Ideal) (k0_pay1 (F := Ideal) x1) x0 x2 (ix2 r q) = accUpTo X W1 B1 r (hcol j q) kb.val := by
  obtain rfl : kb = 0 := Fin.ext hkb
  rw [acc_update_apply, bias_rows_apply, hx1, share_eq X W1 x0 x2 j 0 hx0 hx2]
  exact (accUpTo_zero X W1 B1 r (hcol j q)).symm

/-- A later point of a tile. -/
theorem step_next (acc : Vec Ideal S128x2048 .f32) (x0 : Vec Ideal S128x1024 .f32) (x2 : Vec Ideal S1024x2048 .f32)
    (j : Fin 2) (kb : Fin 12) (n : ℕ) (hkb : kb.val = n + 1)
    (hacc : ∀ r q, acc (ix2 r q) = accUpTo X W1 B1 r (hcol j q) n)
    (hx0 : ∀ r i, x0 (ix2 r i) = X r (kcol kb i)) (hx2 : ∀ i q, x2 (ix2 i q) = W1 (kcol kb i) (hcol j q))
    (r : Fin 128) (q : Fin 2048) :
    k0_pay2 (F := Ideal) acc x0 x2 (ix2 r q) = accUpTo X W1 B1 r (hcol j q) kb.val := by
  rw [acc_update_apply, hacc, share_eq X W1 x0 x2 j kb hx0 hx2, hkb, accUpTo_succ,
    partN_of_lt X W1 r (hcol j q) (n + 1) (hkb ▸ kb.isLt)]
  exact congrArg (fun k => accUpTo X W1 B1 r (hcol j q) n + part X W1 r (hcol j q) k) (Fin.ext hkb)

/-- The tile's output from the accumulator after the last block. -/
theorem step_out (acc : Vec Ideal S128x2048 .f32) (x3 : Vec Ideal S2048x6 .f32) (j : Fin 2)
    (hacc : ∀ r q, acc (ix2 r q) = accUpTo X W1 B1 r (hcol j q) 11)
    (hx3 : ∀ q o, x3 (ix2 q o) = W2 (hcol j q) o) (u : Fin 1) (r : Fin 128) (o : Fin 6) :
    k0_pay3 (F := Ideal) acc x3 (ix3 u r o) = outTile X W1 B1 W2 (Ideal.ofBits .f32 0x00000000#32) j r o := by
  rw [tile_out_apply]
  exact Finset.sum_congr rfl fun q _ => by rw [hacc, hx3]

end Cert.KernelIdeal.MlpSteps

end
-- ==== Proof.MlpBlocks.lean ====
/-
  The blocks the body loads, as entries of the argument arrays.

  Grid point `t` of the `2 × 12` grid has hidden tile `t / 12` and contraction block `t % 12`. There the body finds:
  of `x` the 1024 columns of block `t % 12`; of the bias, made a `1 × 4096` row before the call, the 2048 entries of tile
  `t / 12`; of `W1` the block at rows `t % 12`, columns `t / 12`; of `W2` the 2048 rows of tile `t / 12`. An entry of a
  block is the array's entry at block index × block size + the entry's own coordinate, along each axis.
-/
import proofs.«152724_j33586644255247_1_alg».proof.Proof.Gen.KernelIdeal.Frame.Runs
import proofs.«152724_j33586644255247_1_alg».proof.Proof.MlpSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.MlpBlocks

open Cert.KernelIdeal Cert.KernelIdeal.Gen Cert.MlpSpec

/-- The hidden tile of a grid point. -/
def tileOf (t : Fin cfg0.N) : Fin 2 := ⟨t.val / 12, by have := t.isLt; have h : cfg0.N = 24 := N_0; omega⟩

/-- The contraction block of a grid point. -/
def blockOf (t : Fin cfg0.N) : Fin 12 := ⟨t.val % 12, Nat.mod_lt _ (by norm_num)⟩

/-- Where each window's block sits at point `t`, decided over the 24 points. -/
theorem at_x : ∀ t : Fin cfg0.N, win0_0.index t 0 = 0 ∧ win0_0.index t 1 = t.val % 12 :=
  (by decide +kernel : ∀ t : Fin grid0.N, win0_0.index t 0 = 0 ∧ win0_0.index t 1 = t.val % 12)
theorem at_b1 : ∀ t : Fin cfg0.N, win0_1.index t 0 = 0 ∧ win0_1.index t 1 = t.val / 12 :=
  (by decide +kernel : ∀ t : Fin grid0.N, win0_1.index t 0 = 0 ∧ win0_1.index t 1 = t.val / 12)
theorem at_w1 : ∀ t : Fin cfg0.N, win0_2.index t 0 = t.val % 12 ∧ win0_2.index t 1 = t.val / 12 :=
  (by decide +kernel : ∀ t : Fin grid0.N, win0_2.index t 0 = t.val % 12 ∧ win0_2.index t 1 = t.val / 12)
theorem at_w2 : ∀ t : Fin cfg0.N, win0_3.index t 0 = t.val / 12 ∧ win0_3.index t 1 = 0 :=
  (by decide +kernel : ∀ t : Fin grid0.N, win0_3.index t 0 = t.val / 12 ∧ win0_3.index t 1 = 0)
theorem at_out : ∀ t : Fin cfg0.N, win0_4.index t 0 = t.val / 12 ∧ win0_4.index t 1 = 0 ∧ win0_4.index t 2 = 0 :=
  (by decide +kernel : ∀ t : Fin grid0.N, win0_4.index t 0 = t.val / 12 ∧ win0_4.index t 1 = 0 ∧ win0_4.index t 2 = 0)

variable (m : (ℓ : Loc nD τ sig) → Buf (Elt Ideal) ℓ)

/-- The bias as the call finds it: the argument vector made a `1 × 4096` row. -/
theorem bias_row (c : Dev nD) :
    (V m c main_v0 : S1x4096.Idx → EReal) = shapeCast S1x4096 (m ((c : Thread nD τ).loc main_arg2)) shapeCasts_S4096_S1x4096 := by
  show StableHlo.after hostOps0 (fun b => m (c, b)) (Proc.devRef .tc main_v0) = _
  after_results
  rfl

/-- `x`'s block. -/
theorem x_block (c : Dev nD) (t : Fin cfg0.N) (r : Fin 128) (i : Fin 1024) :
    (iblk m c 0 t : Vec Ideal S128x1024 .f32) (ix2 r i)
      = m ((c : Thread nD τ).loc main_arg0) (ix2 r (kcol (blockOf t) i)) := by
  unfold iblk
  rw [View.read_apply]
  show V m c main_arg0 _ = _
  rw [V_main_arg0]
  refine congrArg _ (funext fun a => Fin.ext ?_)
  match a with
  | ⟨0, _⟩ => show win0_0.index t 0 * 128 + 1 * r.val = r.val; rw [(at_x t).1]; omega
  | ⟨1, _⟩ => show win0_0.index t 1 * 1024 + 1 * i.val = 1024 * (t.val % 12) + i.val; rw [(at_x t).2]; omega

/-- The bias's block. -/
theorem b1_block (c : Dev nD) (t : Fin cfg0.N) (q : Fin 2048) :
    (iblk m c 1 t : Vec Ideal S1x2048 .f32) (ix2 (0 : Fin 1) q)
      = m ((c : Thread nD τ).loc main_arg2) (ix1 (hcol (tileOf t) q)) := by
  unfold iblk
  rw [View.read_apply]
  show V m c main_v0 _ = _
  rw [bias_row]
  refine (shapeCast_a_1a_apply (m ((c : Thread nD τ).loc main_arg2)) shapeCasts_S4096_S1x4096 (0 : Fin 1) (hcol (tileOf t) q)).symm.trans ?_ |>.symm
  refine congrArg _ (funext fun a => Fin.ext ?_)
  match a with
  | ⟨0, _⟩ => show (0 : ℕ) = win0_1.index t 0 * 1 + 1 * 0; rw [(at_b1 t).1]
  | ⟨1, _⟩ => show 2048 * (t.val / 12) + q.val = win0_1.index t 1 * 2048 + 1 * q.val; rw [(at_b1 t).2]; omega

/-- `W1`'s block. -/
theorem w1_block (c : Dev nD) (t : Fin cfg0.N) (i : Fin 1024) (q : Fin 2048) :
    (iblk m c 2 t : Vec Ideal S1024x2048 .f32) (ix2 i q)
      = m ((c : Thread nD τ).loc main_arg1) (ix2 (kcol (blockOf t) i) (hcol (tileOf t) q)) := by
  unfold iblk
  rw [View.read_apply]
  show V m c main_arg1 _ = _
  rw [V_main_arg1]
  refine congrArg _ (funext fun a => Fin.ext ?_)
  match a with
  | ⟨0, _⟩ => show win0_2.index t 0 * 1024 + 1 * i.val = 1024 * (t.val % 12) + i.val; rw [(at_w1 t).1]; omega
  | ⟨1, _⟩ => show win0_2.index t 1 * 2048 + 1 * q.val = 2048 * (t.val / 12) + q.val; rw [(at_w1 t).2]; omega

/-- `W2`'s block. -/
theorem w2_block (c : Dev nD) (t : Fin cfg0.N) (q : Fin 2048) (o : Fin 6) :
    (iblk m c 3 t : Vec Ideal S2048x6 .f32) (ix2 q o)
      = m ((c : Thread nD τ).loc main_arg3) (ix2 (hcol (tileOf t) q) o) := by
  unfold iblk
  rw [View.read_apply]
  show V m c main_arg3 _ = _
  rw [V_main_arg3]
  refine congrArg _ (funext fun a => Fin.ext ?_)
  match a with
  | ⟨0, _⟩ => show win0_3.index t 0 * 2048 + 1 * q.val = 2048 * (t.val / 12) + q.val; rw [(at_w2 t).1]; omega
  | ⟨1, _⟩ => show win0_3.index t 1 * 6 + 1 * o.val = o.val; rw [(at_w2 t).2]; omega

end Cert.KernelIdeal.MlpBlocks

end
-- ==== Proof.MlpInvariant.lean ====
/-
  What the accumulator and the output block hold after each grid point.

  After the point of hidden tile `j` and contraction block `kb` the accumulator holds, at `(r, q)`, the bias at hidden
  column `2048 j + q` plus the shares of contraction blocks `0 … kb` — by induction on the point: a tile's first point
  starts from the repeated bias row, every other point adds its share to what the point before left, and the point
  before is in the same tile. After a tile's last point the output block holds the tile's output of the specification.
-/
import proofs.«152724_j33586644255247_1_alg».proof.Proof.MlpPieces
import proofs.«152724_j33586644255247_1_alg».proof.Proof.MlpSteps
import proofs.«152724_j33586644255247_1_alg».proof.Proof.MlpBlocks

set_option maxRecDepth 16384

noncomputable section

open Idealize.ShloMosaic Idealize.ShloMosaic.TcCoe Idealize.SL.Sem Idealize.ShloMosaic.ValueIdx

namespace Cert.KernelIdeal.MlpInvariant

open Cert.KernelIdeal Cert.KernelIdeal.Gen Cert.MlpSpec
open Cert.KernelIdeal.MlpPieces Cert.KernelIdeal.MlpSteps Cert.KernelIdeal.MlpBlocks

variable (m : (ℓ : Loc nD τ sig) → Buf (Elt Ideal) ℓ)

/-- The argument arrays of core `c`, by coordinates. -/
abbrev aX (c : Dev nD) : Fin 128 → Fin 12288 → EReal := fun r k => m ((c : Thread nD τ).loc main_arg0) (ix2 r k)
abbrev aW1 (c : Dev nD) : Fin 12288 → Fin 4096 → EReal := fun k h => m ((c : Thread nD τ).loc main_arg1) (ix2 k h)
abbrev aB1 (c : Dev nD) : Fin 4096 → EReal := fun h => m ((c : Thread nD τ).loc main_arg2) (ix1 h)
abbrev aW2 (c : Dev nD) : Fin 4096 → Fin 6 → EReal := fun h o => m ((c : Thread nD τ).loc main_arg3) (ix2 h o)

/-- A tile's first point. -/
theorem acc_at_first (c : Dev nD) (t : Fin cfg0.N) (h0 : t.val % 12 = 0) (h1 : ¬t.val % 12 = 11) (r : Fin 128) (q : Fin 2048) :
    (outsAt0 m c t.val t.isLt).2 (ix2 r q) = accUpTo (aX m c) (aW1 m c) (aB1 m c) r (hcol (tileOf t) q) (blockOf t).val := by
  rw [outsAt0_A m c t h0 h1]
  dsimp only
  refine (congrFun (acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 r q)).trans ?_
  exact step_first (aX m c) (aW1 m c) (aB1 m c) (iblk m c 0 t) (iblk m c 1 t) (iblk m c 2 t) (tileOf t) (blockOf t) h0
    (fun r i => x_block m c t r i) (fun q => b1_block m c t q) (fun i q => w1_block m c t i q) r q

/-- A point inside a tile. -/
theorem acc_at_middle (c : Dev nD) (t : Fin cfg0.N) (h0 : ¬t.val % 12 = 0) (h1 : ¬t.val % 12 = 11) (n : ℕ)
    (hk : (blockOf t).val = n + 1)
    (hprev : ∀ r q, (outsAt0 m c (t.val - 1) (Nat.lt_of_le_of_lt (Nat.sub_le _ _) t.isLt)).2 (ix2 r q) = accUpTo (aX m c) (aW1 m c) (aB1 m c) r (hcol (tileOf t) q) n) (r : Fin 128) (q : Fin 2048) :
    (outsAt0 m c t.val t.isLt).2 (ix2 r q) = accUpTo (aX m c) (aW1 m c) (aB1 m c) r (hcol (tileOf t) q) (blockOf t).val := by
  rw [outsAt0_B m c t h0 h1]
  dsimp only
  refine (congrFun (acc_middle (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) (ix2 r q)).trans ?_
  exact step_next (aX m c) (aW1 m c) (aB1 m c) (outsAt0 m c (t.val - 1) (Nat.lt_of_le_of_lt (Nat.sub_le _ _) t.isLt)).2 (iblk m c 0 t) (iblk m c 2 t) (tileOf t) (blockOf t) n hk hprev
    (fun r i => x_block m c t r i) (fun i q => w1_block m c t i q) r q

/-- A tile's last point: the accumulator … -/
theorem acc_at_last (c : Dev nD) (t : Fin cfg0.N) (h0 : ¬t.val % 12 = 0) (h1 : t.val % 12 = 11) (n : ℕ)
    (hk : (blockOf t).val = n + 1)
    (hprev : ∀ r q, (outsAt0 m c (t.val - 1) (Nat.lt_of_le_of_lt (Nat.sub_le _ _) t.isLt)).2 (ix2 r q) = accUpTo (aX m c) (aW1 m c) (aB1 m c) r (hcol (tileOf t) q) n) (r : Fin 128) (q : Fin 2048) :
    (outsAt0 m c t.val t.isLt).2 (ix2 r q) = accUpTo (aX m c) (aW1 m c) (aB1 m c) r (hcol (tileOf t) q) (blockOf t).val := by
  rw [outsAt0_C m c t h0 h1]
  dsimp only
  refine (congrFun (acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 r q)).trans ?_
  exact step_next (aX m c) (aW1 m c) (aB1 m c) (outsAt0 m c (t.val - 1) (Nat.lt_of_le_of_lt (Nat.sub_le _ _) t.isLt)).2 (iblk m c 0 t) (iblk m c 2 t) (tileOf t) (blockOf t) n hk hprev
    (fun r i => x_block m c t r i) (fun i q => w1_block m c t i q) r q

/-- … and the output block. -/
theorem out_at_last (c : Dev nD) (t : Fin cfg0.N) (h0 : ¬t.val % 12 = 0) (h1 : t.val % 12 = 11)
    (hprev : ∀ r q, (outsAt0 m c (t.val - 1) (Nat.lt_of_le_of_lt (Nat.sub_le _ _) t.isLt)).2 (ix2 r q) = accUpTo (aX m c) (aW1 m c) (aB1 m c) r (hcol (tileOf t) q) 10)
    (u : Fin 1) (r : Fin 128) (o : Fin 6) :
    (outsAt0 m c t.val t.isLt).1 (ix3 u r o)
      = outTile (aX m c) (aW1 m c) (aB1 m c) (aW2 m c) (Ideal.ofBits .f32 0x00000000#32) (tileOf t) r o := by
  rw [outsAt0_C m c t h0 h1]
  dsimp only
  refine (congrFun (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix3 u r o)).trans ?_
  refine step_out (aX m c) (aW1 m c) (aB1 m c) (aW2 m c) (k0_pay2 (F := Ideal) (outsAt0 m c (t.val - 1) (Nat.lt_of_le_of_lt (Nat.sub_le _ _) t.isLt)).2 (iblk m c 0 t) (iblk m c 2 t)) (iblk m c 3 t) (tileOf t)
    (fun r q => ?_) (fun q o => w2_block m c t q o) u r o
  have hk : (blockOf t).val = 10 + 1 := h1
  exact (step_next (aX m c) (aW1 m c) (aB1 m c) (outsAt0 m c (t.val - 1) (Nat.lt_of_le_of_lt (Nat.sub_le _ _) t.isLt)).2 (iblk m c 0 t) (iblk m c 2 t) (tileOf t) (blockOf t) 10 hk hprev
    (fun r i => x_block m c t r i) (fun i q => w1_block m c t i q) r q).trans (by rw [hk])

/-- THE ACCUMULATOR AFTER EVERY POINT, by induction on the point. -/
theorem acc_after (c : Dev nD) : ∀ (n : ℕ) (hn : n < cfg0.N) (r : Fin 128) (q : Fin 2048),
    (outsAt0 m c n hn).2 (ix2 r q)
      = accUpTo (aX m c) (aW1 m c) (aB1 m c) r (hcol (tileOf ⟨n, hn⟩) q) (blockOf ⟨n, hn⟩).val
  | 0, hn, r, q => acc_at_first m c ⟨0, hn⟩ (Nat.zero_mod _) (by show ¬(0 : ℕ) % 12 = 11; decide) r q
  | n + 1, hn, r, q => by
    have hN : cfg0.N = 24 := N_0
    have hn' : n < cfg0.N := Nat.lt_of_succ_lt hn
    by_cases h0 : (n + 1) % 12 = 0
    · have h1 : ¬(n + 1) % 12 = 11 := by omega
      exact acc_at_first m c ⟨n + 1, hn⟩ h0 h1 r q
    · have hj : tileOf ⟨n, hn'⟩ = tileOf ⟨n + 1, hn⟩ := Fin.ext (by show n / 12 = (n + 1) / 12; omega)
      have hk : (blockOf ⟨n + 1, hn⟩).val = n % 12 + 1 := by show (n + 1) % 12 = n % 12 + 1; omega
      have hprev : ∀ r q, (outsAt0 m c n hn').2 (ix2 r q) = accUpTo (aX m c) (aW1 m c) (aB1 m c) r (hcol (tileOf ⟨n + 1, hn⟩) q) (n % 12) :=
        fun r q => by rw [← hj]; exact acc_after c n hn' r q
      by_cases h1 : (n + 1) % 12 = 11
      · exact acc_at_last m c ⟨n + 1, hn⟩ h0 h1 (n % 12) hk hprev r q
      · exact acc_at_middle m c ⟨n + 1, hn⟩ h0 h1 (n % 12) hk hprev r q

/-- THE OUTPUT BLOCK AFTER A TILE'S LAST POINT. -/
theorem out_after (c : Dev nD) (t : Fin cfg0.N) (h1 : t.val % 12 = 11) (u : Fin 1) (r : Fin 128) (o : Fin 6) :
    (outsAt0 m c t.val t.isLt).1 (ix3 u r o)
      = outTile (aX m c) (aW1 m c) (aB1 m c) (aW2 m c) (Ideal.ofBits .f32 0x00000000#32) (tileOf t) r o := by
  have hN : cfg0.N = 24 := N_0
  have ht := t.isLt
  have hp : t.val - 1 < cfg0.N := Nat.lt_of_le_of_lt (Nat.sub_le _ _) t.isLt
  refine out_at_last m c t (by omega) h1 (fun r q => ?_) u r o
  have hj : tileOf ⟨t.val - 1, hp⟩ = tileOf t := Fin.ext (by show (t.val - 1) / 12 = t.val / 12; omega)
  have hb : (blockOf ⟨t.val - 1, hp⟩).val = 10 := by show (t.val - 1) % 12 = 10; omega
  rw [← hj, ← hb]
  exact acc_after m c (t.val - 1) hp r q

end Cert.KernelIdeal.MlpInvariant

end
-- ==== Proof.MlpArray.lean ====
/-
  From the output blocks to the result of the whole program.

  The call's output is a `2 × 128 × 6` array, one `128 × 6` slab per hidden tile; slab `j` is written back once, after
  tile `j`'s last grid point (point `12 j + 11`), and holds that tile's output. The two write-backs cover the array. After
  the call the program sums the two slabs from zero and adds the last bias, repeated over the rows.
-/
import proofs.«152724_j33586644255247_1_alg».proof.Proof.MlpInvariant
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.MlpArray

open Cert.KernelIdeal Cert.KernelIdeal.Gen Cert.MlpSpec
open Cert.KernelIdeal.MlpBlocks Cert.KernelIdeal.MlpInvariant

variable (m : (ℓ : Loc nD τ sig) → Buf (Elt Ideal) ℓ) (ρ : Dev nD → PrngReg)

/-- The call's output array: slab `j` is hidden tile `j`'s output. -/
def tiles (c : Dev nD) : Buf (Elt Ideal) ((c : Thread nD τ).loc main_v1) := fun i =>
  outTile (aX m c) (aW1 m c) (aB1 m c) (aW2 m c) (Ideal.ofBits .f32 0x00000000#32) ⟨(i 0).val, (i 0).isLt⟩ ⟨(i 1).val, (i 1).isLt⟩ ⟨(i 2).val, (i 2).isLt⟩

theorem tiles_apply (c : Dev nD) (i : S2x128x6.Idx) (j : Fin 2) (r : Fin 128) (o : Fin 6)
    (h0 : (i 0).val = j.val) (h1 : (i 1).val = r.val) (h2 : (i 2).val = o.val) :
    tiles m c i = outTile (aX m c) (aW1 m c) (aB1 m c) (aW2 m c) (Ideal.ofBits .f32 0x00000000#32) j r o := by
  unfold tiles
  have e0 : (⟨(i 0).val, (i 0).isLt⟩ : Fin 2) = j := Fin.ext h0
  have e1 : (⟨(i 1).val, (i 1).isLt⟩ : Fin 128) = r := Fin.ext h1
  have e2 : (⟨(i 2).val, (i 2).isLt⟩ : Fin 6) = o := Fin.ext h2
  rw [e0, e1, e2]

/-- What a tile's last point writes back is that tile's slab. -/
theorem flushed_eq (c : Dev nD) (t : Fin cfg0.N) (hf : (cfg0.win 4).flush t = true) :
    (dats m 0 c).flushed 4 t = ((cfg0.win 4).blk t).view.read (Elt Ideal) (tiles m c) := by
  have h1 : t.val % 12 = 11 := (flush0_4 t).mp hf
  show (cfg0.win 4).cut (grid0.coords t) ((dats m 0 c).after 4 t) = _
  rw [after0_4]
  funext y
  show (outsAt0 m c t.val t.isLt).1 y = tiles m c (((cfg0.win 4).blk t).view.emb y)
  obtain ⟨u, r, o, rfl⟩ : ∃ (u : Fin 1) (r : Fin 128) (o : Fin 6), y = ix3 u r o := ⟨y 0, y 1, y 2, eq_ix3 y⟩
  rw [out_after m c t h1 u r o]
  have hu : u.val = 0 := by have := u.isLt; omega
  refine (tiles_apply m c _ (tileOf t) r o ?_ ?_ ?_).symm
  · show win0_4.index t 0 * 1 + 1 * u.val = t.val / 12; rw [(at_out t).1]; omega
  · show win0_4.index t 1 * 128 + 1 * r.val = r.val; rw [(at_out t).2.1]; omega
  · show win0_4.index t 2 * 6 + 1 * o.val = o.val; rw [(at_out t).2.2]; omega

/-- An index of the output array is in point `t`'s block iff each coordinate is in the block's range on its axis. -/
theorem mem_blk (t : Fin cfg0.N) (i : S2x128x6.Idx) :
    i ∈ ((cfg0.win 4).blk t).view.set ↔ ∀ a : Fin 3, win0_4.index t a * S1x128x6.size a ≤ (i a).val ∧ (i a).val < win0_4.index t a * S1x128x6.size a + S1x128x6.size a := by
  show i ∈ ((View.whole main_v1).slice (win0_4.rect t)).set ↔ _
  rw [View.set_slice_whole, Rect.mem_set_unit]
  exact Iff.rfl

/-- Slab `j` is covered by the write-back after point `12 j + 11`. -/
theorem covered (i : S2x128x6.Idx) : ∃ t : Fin cfg0.N, (cfg0.win 4).flush t = true ∧ i ∈ ((cfg0.win 4).blk t).view.set := by
  have hN : cfg0.N = 24 := N_0
  have hi0 : (i 0).val < 2 := (i 0).isLt
  have hi1 : (i 1).val < 128 := (i 1).isLt
  have hi2 : (i 2).val < 6 := (i 2).isLt
  let t : Fin cfg0.N := ⟨12 * (i 0).val + 11, by omega⟩
  have ht : t.val = 12 * (i 0).val + 11 := rfl
  refine ⟨t, (flush0_4 t).mpr (by rw [ht]; omega), ?_⟩
  rw [mem_blk]
  intro a
  match a with
  | ⟨0, _⟩ => show win0_4.index t 0 * 1 ≤ (i 0).val ∧ (i 0).val < win0_4.index t 0 * 1 + 1; rw [(at_out t).1, ht]; omega
  | ⟨1, _⟩ => show win0_4.index t 1 * 128 ≤ (i 1).val ∧ (i 1).val < win0_4.index t 1 * 128 + 128; rw [(at_out t).2.1]; omega
  | ⟨2, _⟩ => show win0_4.index t 2 * 6 ≤ (i 2).val ∧ (i 2).val < win0_4.index t 2 * 6 + 6; rw [(at_out t).2.2]; omega

/-- The call's output array after the call. -/
theorem out_array (c : Dev nD) : (dats m 0 c).arrAt 4 cfg0.N = tiles m c :=
  (dats m 0 c).arrAt_eq_of_cover 4 (tiles m c) (flushed_eq m c) covered

/-- The program's result: the slabs summed from zero, plus the last bias repeated over the rows. -/
def result (c : Dev nD) : Buf (Elt Ideal) ((c : Thread nD τ).loc main_v5) :=
  addf (Host.reduceAdd (F := Ideal) (tiles m c) (constant (F := Ideal) S_ .f32 0x00000000#32) reducesTo_S2x128x6_S128x6_d0 h_S_)
    (broadcastInDim S128x6 ![0, 1] bcast_S1x6_S128x6_0_1 (broadcastInDim S1x6 ![1] bcast_S6_S1x6_1 (m ((c : Thread nD τ).loc main_arg4))))

/-- The operations after the call compute it from the call's output array. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  have e1 : Pipeline.withArrays (cfgs 0).spec c (V0 m c) (fun w => (dats m 0 c).arrAt w (cfgs 0).N) (Proc.devRef .tc main_v1)
      = tiles m c :=
    (Pipeline.withArrays_arr spec0 launch0.win.arr_inj c _ _ 4).trans (out_array m c)
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  rw [e1, e4]
  rfl

/-- THE RUN, READ: every weakly fair execution ends with the result buffer at `result` and the arguments as launched. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v5 (Pipeline.mem_restRefs_of main_v5 (by decide) (by decide))).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.MlpArray

end
-- ==== Proof.RefSide.lean ====
/-
  The reference, read at an entry.

  The reference takes the first product whole, adds the bias repeated over the rows, clamps against the zero word's value
  and takes the second product whole: before the last bias its result at `(r, o)` is
  `∑ h, max ((∑ k, x (r, k) · W1 (k, h)) + b1 h) z · W2 (h, o)`. Each host operation is read at an index from its operands
  at an index; the indices are matched coordinate by coordinate.
-/
import proofs.«152724_j33586644255247_1_alg».proof.Defs
import proofs.«152724_j33586644255247_1_alg».proof.Proof.Gen.ReferenceIdeal.Read
import Idealize.ShloMosaic.Lib.ValueIdx
import Idealize.ShloMosaic.PureOps.Ideal.Laws

noncomputable section

open Idealize.ShloMosaic Idealize.ShloMosaic.ValueIdx

namespace Cert.ReferenceIdeal.RefSide

open Cert.ReferenceIdeal Cert.ReferenceIdeal.Read

theorem lidx_v0 (r : Fin 128) (h : Fin 4096) (k : Fin 12288) : lidx_main_v0 (ix2 r h) k = ix2 r k :=
  funext fun a => Fin.ext (by match a with | ⟨0, _⟩ => rfl | ⟨1, _⟩ => rfl)
theorem ridx_v0 (r : Fin 128) (h : Fin 4096) (k : Fin 12288) : ridx_main_v0 (ix2 r h) k = ix2 k h :=
  funext fun a => Fin.ext (by match a with | ⟨0, _⟩ => rfl | ⟨1, _⟩ => rfl)
theorem idx_bias (r : Fin 128) (h : Fin 4096) : idx_main_v1 (idx_main_v2 (ix2 r h)) = ix1 h :=
  funext fun a => Fin.ext (by match a with | ⟨0, _⟩ => rfl)
theorem lidx_v5 (r : Fin 128) (o : Fin 6) (h : Fin 4096) : lidx_main_v5 (ix2 r o) h = ix2 r h :=
  funext fun a => Fin.ext (by match a with | ⟨0, _⟩ => rfl | ⟨1, _⟩ => rfl)
theorem ridx_v5 (r : Fin 128) (o : Fin 6) (h : Fin 4096) : ridx_main_v5 (ix2 r o) h = ix2 h o :=
  funext fun a => Fin.ext (by match a with | ⟨0, _⟩ => rfl | ⟨1, _⟩ => rfl)

/-- The hidden activation at `(r, h)`. -/
theorem hidden_apply (x0 : S128x12288.Idx → EReal) (x1 : S12288x4096.Idx → EReal) (x2 : S4096.Idx → EReal)
    (r : Fin 128) (h : Fin 4096) :
    val_main_v4 (F := Ideal) x0 x1 x2 (ix2 r h)
      = max ((∑ k : Fin 12288, x0 (ix2 r k) * x1 (ix2 k h)) + x2 (ix1 h)) (Ideal.ofBits .f32 0x00000000#32) := by
  rw [val_main_v4_apply, val_main_v3_apply, val_main_v0_apply, val_main_v2_apply, val_main_v1_apply,
    val_main_call0_v0_apply, val_main_call0_cst_apply, idx_bias]
  simp only [lidx_v0, ridx_v0]
  rfl

/-- The result before the last bias, at `(r, o)`. -/
theorem second_product_apply (x0 : S128x12288.Idx → EReal) (x1 : S12288x4096.Idx → EReal) (x2 : S4096.Idx → EReal)
    (x3 : S4096x6.Idx → EReal) (r : Fin 128) (o : Fin 6) :
    val_main_v5 (F := Ideal) x0 x1 x2 x3 (ix2 r o)
      = ∑ h : Fin 4096, max ((∑ k : Fin 12288, x0 (ix2 r k) * x1 (ix2 k h)) + x2 (ix1 h)) (Ideal.ofBits .f32 0x00000000#32)
          * x3 (ix2 h o) := by
  rw [val_main_v5_apply]
  refine Finset.sum_congr rfl fun h _ => ?_
  rw [lidx_v5, ridx_v5, hidden_apply]

end Cert.ReferenceIdeal.RefSide

end
-- ==== Proof.MlpBridge.lean ====
/-
  The two programs' results are one function of the arguments.

  The kernel side ends at: the two hidden tiles' outputs summed from zero, plus the last bias repeated over the rows. The
  reference ends at: the whole second product of the clamped hidden activations, plus the same repeated bias. The
  repeated bias is the same term on both sides, and before it the two agree entry by entry: splitting the hidden axis
  into its 2 tiles and the contraction into its 12 blocks, and adding the first bias before or after the contraction,
  only regroups and reorders a sum of extended reals.
-/
import proofs.«152724_j33586644255247_1_alg».proof.Proof.MlpArray
import proofs.«152724_j33586644255247_1_alg».proof.Proof.RefSide

noncomputable section

open Idealize.ShloMosaic Idealize.ShloMosaic.TcCoe Idealize.SL.Sem Idealize.ShloMosaic.ValueIdx

namespace Cert.Proof.MlpBridge

open Cert.KernelIdeal Cert.KernelIdeal.Gen Cert.MlpSpec
open Cert.KernelIdeal.MlpInvariant Cert.KernelIdeal.MlpArray

/-- The sum of the slabs of a `2 × 128 × 6` array from the zero word's value, at `(r, o)`. -/
theorem slabs_sum (T : S2x128x6.Idx → EReal) (r : Fin 128) (o : Fin 6) :
    Host.reduceAdd (F := Ideal) T (constant (F := Ideal) S_ .f32 0x00000000#32) reducesTo_S2x128x6_S128x6_d0 h_S_ (ix2 r o)
      = Ideal.ofBits .f32 0x00000000#32 + ∑ j : Fin 2, T (ix3 j r o) := by
  simp only [Host.reduceAdd, Ideal.hostReduceAdd_def]
  rw [Ideal.hostReduceAdd_single reducesTo_S2x128x6_S128x6_d0 (by decide)]
  refine congrArg (_ + ·) (Finset.sum_congr rfl fun k _ => ?_)
  exact congrArg T (funext fun a => Fin.ext (by match a with | ⟨0, _⟩ => rfl | ⟨1, _⟩ => rfl | ⟨2, _⟩ => rfl))

/-- If slab `j` of `T` is hidden tile `j`'s output, the slabs summed from zero are the whole second product. -/
theorem slabs_total (T : S2x128x6.Idx → EReal) (X : Fin 128 → Fin 12288 → EReal) (W1 : Fin 12288 → Fin 4096 → EReal)
    (B1 : Fin 4096 → EReal) (W2 : Fin 4096 → Fin 6 → EReal) (z : EReal) (hz : z = 0)
    (hT : ∀ (j : Fin 2) (r : Fin 128) (o : Fin 6), T (ix3 j r o) = outTile X W1 B1 W2 z j r o) (r : Fin 128) (o : Fin 6) :
    z + ∑ j : Fin 2, T (ix3 j r o) = ∑ h : Fin 4096, max ((∑ k : Fin 12288, X r k * W1 k h) + B1 h) z * W2 h o := by
  rw [Finset.sum_congr rfl fun j _ => hT j r o]
  refine (congrArg (· + ∑ j : Fin 2, outTile X W1 B1 W2 z j r o) hz).trans ?_
  exact sum_outTile X W1 B1 W2 z r o

variable (m : (ℓ : Loc nD τ sig) → Buf (Elt Ideal) ℓ)

/-- Before the last bias the two sides agree. -/
theorem before_bias_eq (c : Dev nD) :
    Host.reduceAdd (F := Ideal) (tiles m c) (constant (F := Ideal) S_ .f32 0x00000000#32) reducesTo_S2x128x6_S128x6_d0 h_S_
      = Cert.ReferenceIdeal.Read.val_main_v5 (F := Ideal) (m ((c : Thread nD τ).loc main_arg0)) (m ((c : Thread nD τ).loc main_arg1))
          (m ((c : Thread nD τ).loc main_arg2)) (m ((c : Thread nD τ).loc main_arg3)) := by
  funext i
  obtain ⟨r, o, rfl⟩ : ∃ (r : Fin 128) (o : Fin 6), i = ix2 r o := ⟨i 0, i 1, eq_ix2 i⟩
  rw [slabs_sum, Cert.ReferenceIdeal.RefSide.second_product_apply]
  exact slabs_total (tiles m c) (aX m c) (aW1 m c) (aB1 m c) (aW2 m c) (Ideal.ofBits .f32 0x00000000#32) Ideal.ofBits_zero_f32
    (fun j r o => tiles_apply m c (ix3 j r o) j r o rfl rfl rfl) r o

/-- The kernel side's result is the reference's term of the same arguments. -/
theorem result_eq (c : Dev nD) :
    result m c = Cert.ReferenceIdeal.Read.val_main_v8 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  unfold result
  rw [before_bias_eq]
  rfl

end Cert.Proof.MlpBridge

end
-- ==== Proof.lean ====
/-
  A two-layer perceptron, `relu (x · W1 + b1) · W2 + b2` with `x : 128 × 12288`, `W1 : 12288 × 4096`, `W2 : 4096 × 6`,
  computed by a kernel that tiles the hidden axis in 2 and the first contraction in 12, against the plain chain of two
  whole products.

  The kernel visits a `2 × 12` grid. For hidden tile `j` it keeps a `128 × 2048` accumulator: set to the bias tile at the
  tile's first point, increased at every point by the product of the point's `128 × 1024` block of `x` and
  `1024 × 2048` block of `W1`; after the tile's last point the accumulator, clamped at zero, is multiplied into the
  tile's `2048 × 6` rows of `W2` and the `128 × 6` result is written to slab `j` of a `2 × 128 × 6` array. After the call
  the two slabs are summed and `b2` is added. On the extended reals every float operation is exact and a change of float
  format is the identity, so the kernel computes, at `(r, o)`,
  `(0 + ∑ j, ∑ q, max (b1 h + ∑ kb, ∑ i, x (r, k) · W1 (k, h)) 0 · W2 (h, o)) + b2 o` with `h = 2048 j + q`,
  `k = 1024 kb + i`, and the reference `(∑ h, max ((∑ k, x (r, k) · W1 (k, h)) + b1 h) 0 · W2 (h, o)) + b2 o`. The two
  differ by the grouping and order of sums and by `0 +`: they are equal for all inputs, and the finiteness of the inputs
  is not used.

  The modules: MlpSpec (the two groupings agree), MlpPayload and MlpSteps (the body's stored values against the
  specification), MlpPieces (what each grid point leaves in the accumulator and the output block), MlpBlocks (the loaded
  blocks as entries of the arguments), MlpInvariant (the accumulator after every point, by induction), MlpArray (the
  output array, the operations after the call, the run), RefSide (the reference at an entry), MlpBridge (the two results
  are one function). The three frames are the generated ones; the idealization rewrote nothing.
-/
import proofs.«152724_j33586644255247_1_alg».proof.Defs
import proofs.«152724_j33586644255247_1_alg».proof.Proof.Gen.Kernel
import proofs.«152724_j33586644255247_1_alg».proof.Proof.Gen.Kernel.Frame
import proofs.«152724_j33586644255247_1_alg».proof.Proof.Gen.KernelIdeal
import proofs.«152724_j33586644255247_1_alg».proof.Proof.Gen.KernelIdeal.Frame
import proofs.«152724_j33586644255247_1_alg».proof.Proof.Gen.ReferenceIdeal
import proofs.«152724_j33586644255247_1_alg».proof.Proof.Gen.ReferenceIdeal.Run
import proofs.«152724_j33586644255247_1_alg».proof.Proof.Gen.ReferenceIdeal.Read
import proofs.«152724_j33586644255247_1_alg».proof.Proof.Gen.Pre_finite_inputs
import proofs.«152724_j33586644255247_1_alg».proof.Proof.MlpArray
import proofs.«152724_j33586644255247_1_alg».proof.Proof.RefSide
import proofs.«152724_j33586644255247_1_alg».proof.Proof.MlpBridge
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result, entry by entry. -/
theorem algebraic : Cert.algebraic_KernelIdeal_ReferenceIdeal := by
  intro m ρ m' ρ' _ hagree
  refine ⟨fun c => Cert.KernelIdeal.MlpArray.result m c, Cert.KernelIdeal.MlpArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2.1,
    (hagree c).2.2.2.2]
  exact (Cert.Proof.MlpBridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
